-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4000x128 : Shape := ⟨2, ![4000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000x384 : Shape := ⟨2, ![100000, 384]⟩

abbrev nBuf : Space → Nat
  | .hbm => 65
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .bf16⟩
  | .hbm, ⟨11, _⟩ => ⟨S128x128, .bf16⟩
  | .hbm, ⟨12, _⟩ => ⟨S128x128, .bf16⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x384, .f32⟩
  | .local _ .vmem, ⟨0, _⟩ => ⟨S4000x128, .f32⟩
  | .local _ .vmem, ⟨1, _⟩ => ⟨S4000x128, .f32⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000x384 : Shape := ⟨2, ![100000, 384]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S1600000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S1600000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1600000x1, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x384, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.WordAround.lean ====
/-
  @main of this program is three host conversions (the weight matrices to the matrix unit's input format), ONE
  pallas_call over 25 row blocks of 4000 rows, and 49 host lines after it (the two sparse propagations and the
  concatenation of the three hops). This module states what the region finds and what the later lines may touch:
  the contents of every buffer when the region is entered (`V`), @main as "the region continued by the later lines"
  (`hmain`), that the later lines touch only unscoped buffers, allocate nothing and write none of the ten arrays the
  pallas_call stages (`tail_sub`, `tail_fresh`, `tail_keeps`), that no host line writes an argument (`V_main_argK`,
  `W_main_argK`), each window's block at a grid point (`iblk`), and the frame claim's post read off a frame run
  (`frame_of`). Everything is stated for any float instance `F`.
-/
import proofs.«136343_j69234872811809_1_alg».proof.Proof.Gen.Kernel.Launch
import proofs.«136343_j69234872811809_1_alg».proof.Proof.Gen.Kernel.Skeleton
import proofs.«136343_j69234872811809_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the launch contents after the three conversions. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the 49 later lines, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: each is an array of the pallas_call or bypasses it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- A line whose one written buffer is no array of the pallas_call writes none of them. -/
theorem not_arr_of_ne (y : Ref sig .tc) (hy : ∀ w, Pipeline.arrRef spec0 w ≠ y) :
    ∀ w, Proc.devRef (τ := τ) .tc (Pipeline.arrRef spec0 w) ∉ ({Proc.devRef .tc y} : Finset (DevRef τ sig)) :=
  fun w h => StableHlo.devRef_ne_of_ne (hy w) (Finset.mem_singleton.mp h)

/-- Each later line writes its own fresh result buffer, which is none of the ten arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.nary_writes]
  repeat' apply And.intro
  all_goals exact not_arr_of_ne _ (by decide)
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## No host line writes an argument -/

/-- The conversions before the region leave `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The lines after the region leave `main_arg1` as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The lines after the region leave `main_arg2` as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The lines after the region leave `main_arg3` as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The lines after the region leave `main_arg4` as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The lines after the region leave `main_arg6` as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The lines after the region leave `main_arg8` as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched window's
    block index has not moved), for any proof data whose array is `V`'s and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched window's
    block index has not moved), for any proof data whose array is `V`'s and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched window's
    block index has not moved), for any proof data whose array is `V`'s and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched window's
    block index has not moved), for any proof data whose array is `V`'s and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched window's
    block index has not moved), for any proof data whose array is `V`'s and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched window's
    block index has not moved), for any proof data whose array is `V`'s and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (an unfetched window's
    block index has not moved), for any proof data whose array is `V`'s and whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post — every staged array
    at what the write-backs leave, every other unscoped buffer as the later lines leave it — ends with the ten argument
    arrays as launched: a staged argument is an INPUT window's array, which no write-back touches; the others bypass the
    region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 4).trans (((dats 0 c).arrAt_in 4 rfl _).trans ((hA c 4).trans (V_main_arg5 m c))),
      ((h c).2 main_arg6 (Pipeline.mem_restRefs_of main_arg6 (by decide) (by decide))).trans (W_main_arg6 m dats c),
      ((h c).1 5).trans (((dats 0 c).arrAt_in 5 rfl _).trans ((hA c 5).trans (V_main_arg7 m c))),
      ((h c).2 main_arg8 (Pipeline.mem_restRefs_of main_arg8 (by decide) (by decide))).trans (W_main_arg8 m dats c),
      ((h c).1 6).trans (((dats 0 c).arrAt_in 6 rfl _).trans ((hA c 6).trans (V_main_arg9 m c)))⟩) h

end Cert.Kernel.Around

end
-- ==== Proof.WordBody.lean ====
/-
  The kernel body at one grid point. It loads a 4000-row block of `x`, the three converted weight matrices and the three
  bias rows, forms for each hop the block `x_blk · W + b` (the skeleton's payloads `k0_pay2`, `k0_pay3`, `k0_pay4`), and
  stores each whole into its output window's staging buffer (after a load of that buffer whose value it never uses).
  `hop0`, `hop1`, `hop2` name what the three output buffers hold afterwards as functions of the loaded blocks, and
  `sound_kernel` is the body's triple: holding the seven input buffers at any contents and the three output buffers at
  anything, it runs to its return holding the inputs unchanged and the outputs at `hopK` of the inputs.
-/
import proofs.«136343_j69234872811809_1_alg».proof.Proof.WordAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each a whole buffer -/

abbrev rX : Rect S4000x128 := Rect.unit (s := S4000x128) ![0, 0] S4000x128.size inb_S4000x128_S4000x128_0_0
abbrev rW : Rect S128x128 := Rect.unit (s := S128x128) ![0, 0] S128x128.size inb_S128x128_S128x128_0_0
abbrev rB : Rect S128 := Rect.unit (s := S128) ![0] S128.size inb_S128_S128_0

/-! ## What the body leaves in each output window's buffer -/

/-- Hop 0's buffer after the body: its one store, of `x_blk · W0 + b0`, covering it. -/
def hop0 (x0 : Vec F S4000x128 .f32) (w : Vec F S128x128 .bf16) (b : Vec F S128 .f32) : Vec F S4000x128 .f32 :=
  View.canon [⟨rX, k0_pay2 (View.ld x0 rX) (View.ld w rW) (View.ld b rB)⟩]
/-- Hop 1's, of `x_blk · W1 + b1`. -/
def hop1 (x0 : Vec F S4000x128 .f32) (w : Vec F S128x128 .bf16) (b : Vec F S128 .f32) : Vec F S4000x128 .f32 :=
  View.canon [⟨rX, k0_pay3 (View.ld x0 rX) (View.ld w rW) (View.ld b rB)⟩]
/-- Hop 2's, of `x_blk · W2 + b2`. -/
def hop2 (x0 : Vec F S4000x128 .f32) (w : Vec F S128x128 .bf16) (b : Vec F S128 .f32) : Vec F S4000x128 .f32 :=
  View.canon [⟨rX, k0_pay4 (View.ld x0 rX) (View.ld w rW) (View.ld b rB)⟩]

/-- One store through the whole-buffer rectangle covers the buffer. -/
theorem cover_whole (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

/-! ## The body's triple -/

set_option maxHeartbeats 4000000 in
theorem sound_kernel (c : Dev nD) (E : Set ℕ) (i : grid0.Coords) (arg1 : Memref sig .tc .vmem S4000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S4000x128 .f32) (harg8 : arg8.IsWhole) (arg9 : Memref sig .tc .vmem S4000x128 .f32) (harg9 : arg9.IsWhole) (arg10 : Memref sig .tc .vmem S4000x128 .f32) (harg10 : arg10.IsWhole)
    (x0 : Vec F S4000x128 .f32) (x1 x2 x3 : Vec F S128x128 .bf16) (x4 x5 x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (hop0 x0 x1 x4) ∗ owns (c : Thread nD τ) arg9 fullShare (hop1 x0 x2 x5) ∗ owns (c : Thread nD τ) arg10 fullShare (hop2 x0 x3 x6)) -∗ K ⟨⟩))
      ⊢ wp frame (wpE (defs₀ (F := F)) Variants.none c none) E (cc0__linear3_kernel i arg1 harg1 arg2 harg2 arg3 harg3 arg4 harg4 arg5 harg5 arg6 harg6 arg7 harg7 arg8 harg8 arg9 harg9 arg10 harg10) K := by
  simp only [cc0__linear3_kernel_eq_skeleton]; unfold cc0__linear3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_whole _)
  isplitl [H8]
  · iexists _; isplitr
    swap; · iexact H8
    ipureintro
    exact View.read_writes_eq_canon _ _ _ (cover_whole _)
  · iexists _; isplitr
    swap; · iexact H9
    ipureintro
    exact View.read_writes_eq_canon _ _ _ (cover_whole _)

end Cert.Kernel.Around

end
-- ==== Proof.WordRun.lean ====
/-
  The pallas_call's proof data and its frame run. On each core the arrays are as the region finds them; after the body
  at grid point `t` each input window's staging buffer still holds its block and each output window's holds the hop's
  block `x_blk(t) · W + b` (`hopK` of the input blocks at `t`); the region invariant is the class's (the scoped rest and
  the generator register, which the body never touches). The body obligation at every point is the body's triple, and the
  library's frame theorem for "host lines, one region, host lines" gives the run: every weakly fair execution of @main
  terminates, each staged array ending at what the write-backs leave, every other unscoped buffer as the later lines
  leave it — from which the frame claim follows.
-/
import proofs.«136343_j69234872811809_1_alg».proof.Proof.WordBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hop0 (iblk m c 0 t) (iblk m c 1 t) (iblk m c 4 t)
    | ⟨8, _⟩ => hop1 (iblk m c 0 t) (iblk m c 2 t) (iblk m c 5 t)
    | ⟨9, _⟩ => hop2 (iblk m c 0 t) (iblk m c 3 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = hop0 (iblk m c 0 t) (iblk m c 1 t) (iblk m c 4 t) := by dsimp only [dats]
theorem after_8 (c : Dev nD) (t : Fin cfg0.N) : (dats m 0 c).after 8 t = hop1 (iblk m c 0 t) (iblk m c 2 t) (iblk m c 5 t) := by dsimp only [dats]
theorem after_9 (c : Dev nD) (t : Fin cfg0.N) : (dats m 0 c).after 9 t = hop2 (iblk m c 0 t) (iblk m c 3 t) (iblk m c 6 t) := by dsimp only [dats]

/-- Each input's current staging buffer holds its block at every point, fetched there or not. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

/-- What the body is called with at point `t`: the invariant, the core's dues, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the invariant and the dues
    pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pallas_call
    ending at what the library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to its end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Around

end
-- ==== Proof.IdealAround.lean ====
/-
  @main of this program is three host conversions (the weight matrices to the matrix unit's input format), ONE
  pallas_call over 25 row blocks of 4000 rows, and 49 host lines after it (the two sparse propagations and the
  concatenation of the three hops). This module states what the region finds and what the later lines may touch:
  the contents of every buffer when the region is entered (`V`), @main as "the region continued by the later lines"
  (`hmain`), that the later lines touch only unscoped buffers, allocate nothing and write none of the ten arrays the
  pallas_call stages (`tail_sub`, `tail_fresh`, `tail_keeps`), that no host line writes an argument (`V_main_argK`,
  `W_main_argK`), each window's block at a grid point (`iblk`), and the frame claim's post read off a frame run
  (`frame_of`). Everything is stated for any float instance `F`.
-/
import proofs.«136343_j69234872811809_1_alg».proof.Proof.Gen.KernelIdeal.Launch
import proofs.«136343_j69234872811809_1_alg».proof.Proof.Gen.KernelIdeal.Skeleton
import proofs.«136343_j69234872811809_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the launch contents after the three conversions. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the 49 later lines, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: each is an array of the pallas_call or bypasses it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- A line whose one written buffer is no array of the pallas_call writes none of them. -/
theorem not_arr_of_ne (y : Ref sig .tc) (hy : ∀ w, Pipeline.arrRef spec0 w ≠ y) :
    ∀ w, Proc.devRef (τ := τ) .tc (Pipeline.arrRef spec0 w) ∉ ({Proc.devRef .tc y} : Finset (DevRef τ sig)) :=
  fun w h => StableHlo.devRef_ne_of_ne (hy w) (Finset.mem_singleton.mp h)

/-- Each later line writes its own fresh result buffer, which is none of the ten arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.nary_writes]
  repeat' apply And.intro
  all_goals exact not_arr_of_ne _ (by decide)
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## No host line writes an argument -/

/-- The conversions before the region leave `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The conversions before the region leave `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The lines after the region leave `main_arg1` as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The lines after the region leave `main_arg2` as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The lines after the region leave `main_arg3` as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The lines after the region leave `main_arg4` as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The lines after the region leave `main_arg6` as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The lines after the region leave `main_arg8` as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched window's
    block index has not moved), for any proof data whose array is `V`'s and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched window's
    block index has not moved), for any proof data whose array is `V`'s and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched window's
    block index has not moved), for any proof data whose array is `V`'s and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched window's
    block index has not moved), for any proof data whose array is `V`'s and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched window's
    block index has not moved), for any proof data whose array is `V`'s and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched window's
    block index has not moved), for any proof data whose array is `V`'s and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (an unfetched window's
    block index has not moved), for any proof data whose array is `V`'s and whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post — every staged array
    at what the write-backs leave, every other unscoped buffer as the later lines leave it — ends with the ten argument
    arrays as launched: a staged argument is an INPUT window's array, which no write-back touches; the others bypass the
    region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 4).trans (((dats 0 c).arrAt_in 4 rfl _).trans ((hA c 4).trans (V_main_arg5 m c))),
      ((h c).2 main_arg6 (Pipeline.mem_restRefs_of main_arg6 (by decide) (by decide))).trans (W_main_arg6 m dats c),
      ((h c).1 5).trans (((dats 0 c).arrAt_in 5 rfl _).trans ((hA c 5).trans (V_main_arg7 m c))),
      ((h c).2 main_arg8 (Pipeline.mem_restRefs_of main_arg8 (by decide) (by decide))).trans (W_main_arg8 m dats c),
      ((h c).1 6).trans (((dats 0 c).arrAt_in 6 rfl _).trans ((hA c 6).trans (V_main_arg9 m c)))⟩) h

end Cert.KernelIdeal.Around

end
-- ==== Proof.IdealBody.lean ====
/-
  The kernel body at one grid point. It loads a 4000-row block of `x`, the three converted weight matrices and the three
  bias rows, forms for each hop the block `x_blk · W + b` (the skeleton's payloads `k0_pay2`, `k0_pay3`, `k0_pay4`), and
  stores each whole into its output window's staging buffer (after a load of that buffer whose value it never uses).
  `hop0`, `hop1`, `hop2` name what the three output buffers hold afterwards as functions of the loaded blocks, and
  `sound_kernel` is the body's triple: holding the seven input buffers at any contents and the three output buffers at
  anything, it runs to its return holding the inputs unchanged and the outputs at `hopK` of the inputs.
-/
import proofs.«136343_j69234872811809_1_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each a whole buffer -/

abbrev rX : Rect S4000x128 := Rect.unit (s := S4000x128) ![0, 0] S4000x128.size inb_S4000x128_S4000x128_0_0
abbrev rW : Rect S128x128 := Rect.unit (s := S128x128) ![0, 0] S128x128.size inb_S128x128_S128x128_0_0
abbrev rB : Rect S128 := Rect.unit (s := S128) ![0] S128.size inb_S128_S128_0

/-! ## What the body leaves in each output window's buffer -/

/-- Hop 0's buffer after the body: its one store, of `x_blk · W0 + b0`, covering it. -/
def hop0 (x0 : Vec F S4000x128 .f32) (w : Vec F S128x128 .bf16) (b : Vec F S128 .f32) : Vec F S4000x128 .f32 :=
  View.canon [⟨rX, k0_pay2 (View.ld x0 rX) (View.ld w rW) (View.ld b rB)⟩]
/-- Hop 1's, of `x_blk · W1 + b1`. -/
def hop1 (x0 : Vec F S4000x128 .f32) (w : Vec F S128x128 .bf16) (b : Vec F S128 .f32) : Vec F S4000x128 .f32 :=
  View.canon [⟨rX, k0_pay3 (View.ld x0 rX) (View.ld w rW) (View.ld b rB)⟩]
/-- Hop 2's, of `x_blk · W2 + b2`. -/
def hop2 (x0 : Vec F S4000x128 .f32) (w : Vec F S128x128 .bf16) (b : Vec F S128 .f32) : Vec F S4000x128 .f32 :=
  View.canon [⟨rX, k0_pay4 (View.ld x0 rX) (View.ld w rW) (View.ld b rB)⟩]

/-- One store through the whole-buffer rectangle covers the buffer. -/
theorem cover_whole (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

/-! ## The body's triple -/

set_option maxHeartbeats 4000000 in
theorem sound_kernel (c : Dev nD) (E : Set ℕ) (i : grid0.Coords) (arg1 : Memref sig .tc .vmem S4000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S4000x128 .f32) (harg8 : arg8.IsWhole) (arg9 : Memref sig .tc .vmem S4000x128 .f32) (harg9 : arg9.IsWhole) (arg10 : Memref sig .tc .vmem S4000x128 .f32) (harg10 : arg10.IsWhole)
    (x0 : Vec F S4000x128 .f32) (x1 x2 x3 : Vec F S128x128 .bf16) (x4 x5 x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (hop0 x0 x1 x4) ∗ owns (c : Thread nD τ) arg9 fullShare (hop1 x0 x2 x5) ∗ owns (c : Thread nD τ) arg10 fullShare (hop2 x0 x3 x6)) -∗ K ⟨⟩))
      ⊢ wp frame (wpE (defs₀ (F := F)) Variants.none c none) E (cc0__linear3_kernel i arg1 harg1 arg2 harg2 arg3 harg3 arg4 harg4 arg5 harg5 arg6 harg6 arg7 harg7 arg8 harg8 arg9 harg9 arg10 harg10) K := by
  simp only [cc0__linear3_kernel_eq_skeleton]; unfold cc0__linear3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_whole _)
  isplitl [H8]
  · iexists _; isplitr
    swap; · iexact H8
    ipureintro
    exact View.read_writes_eq_canon _ _ _ (cover_whole _)
  · iexists _; isplitr
    swap; · iexact H9
    ipureintro
    exact View.read_writes_eq_canon _ _ _ (cover_whole _)

end Cert.KernelIdeal.Around

end
-- ==== Proof.IdealRun.lean ====
/-
  The pallas_call's proof data and its frame run. On each core the arrays are as the region finds them; after the body
  at grid point `t` each input window's staging buffer still holds its block and each output window's holds the hop's
  block `x_blk(t) · W + b` (`hopK` of the input blocks at `t`); the region invariant is the class's (the scoped rest and
  the generator register, which the body never touches). The body obligation at every point is the body's triple, and the
  library's frame theorem for "host lines, one region, host lines" gives the run: every weakly fair execution of @main
  terminates, each staged array ending at what the write-backs leave, every other unscoped buffer as the later lines
  leave it — from which the frame claim follows.
-/
import proofs.«136343_j69234872811809_1_alg».proof.Proof.IdealBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hop0 (iblk m c 0 t) (iblk m c 1 t) (iblk m c 4 t)
    | ⟨8, _⟩ => hop1 (iblk m c 0 t) (iblk m c 2 t) (iblk m c 5 t)
    | ⟨9, _⟩ => hop2 (iblk m c 0 t) (iblk m c 3 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = hop0 (iblk m c 0 t) (iblk m c 1 t) (iblk m c 4 t) := by dsimp only [dats]
theorem after_8 (c : Dev nD) (t : Fin cfg0.N) : (dats m 0 c).after 8 t = hop1 (iblk m c 0 t) (iblk m c 2 t) (iblk m c 5 t) := by dsimp only [dats]
theorem after_9 (c : Dev nD) (t : Fin cfg0.N) : (dats m 0 c).after 9 t = hop2 (iblk m c 0 t) (iblk m c 3 t) (iblk m c 6 t) := by dsimp only [dats]

/-- Each input's current staging buffer holds its block at every point, fetched there or not. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

/-- What the body is called with at point `t`: the invariant, the core's dues, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the invariant and the dues
    pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pallas_call
    ending at what the library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to its end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Around

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.IdealPayload.lean ====
/-
  The kernel body's three results at one entry of the block, over the extended reals: the matrix unit's product of the
  4000-row block of `x` (its conversion to the unit's input format is the identity on exact values) with the hop's
  128 × 128 weights, into a zero accumulator, plus the bias row spread over the 4000 rows — at row `p`, column `q` the
  sum over `k` of `x_blk[p, k] · W[k, q]`, plus `b[q]`.
-/
import proofs.«136343_j69234872811809_1_alg».proof.Proof.IdealBody
import proofs.«136343_j69234872811809_1_alg».proof.Proof.LibPlainContract
import Idealize.ShloMosaic.Lib.Pipeline.Value
import Idealize.ShloMosaic.Lib.ValueLayout

noncomputable section

namespace Cert.KernelIdeal.Blocks

open Cert.KernelIdeal Cert.KernelIdeal.Gen Cert.KernelIdeal.Around
open Idealize.ShloMosaic Idealize.ShloMosaic.ValueIdx Idealize.SL.Sem

/-- Each hop's payload at an entry: the matrix unit's product of the block with the hop's weights, plus the bias row. -/
theorem pay2_apply (x0 : Vec Ideal S4000x128 .f32) (w : Vec Ideal S128x128 .bf16) (b : Vec Ideal S128 .f32)
    (p : Fin 4000) (q : Fin 128) :
    k0_pay2 (F := Ideal) x0 w b (ix2 p q) = (∑ k : Fin 128, x0 (ix2 p k) * w (ix2 k q)) + b (ix1 q) := by
  unfold k0_pay2
  refine (addf_apply _ _ _).trans ?_
  refine congrArg₂ (· + ·) ?_ ?_
  · rw [shapeCast_self]
    exact Cert.LibPlainContract.matmul_plain_apply 4000 128 128 none (k0_pay1 (F := Ideal) x0) w p q
  · exact (broadcastTo_1b_ab_apply _ _ p q).trans (shapeCast_a_1a_apply b _ 0 q)
theorem pay3_apply (x0 : Vec Ideal S4000x128 .f32) (w : Vec Ideal S128x128 .bf16) (b : Vec Ideal S128 .f32)
    (p : Fin 4000) (q : Fin 128) :
    k0_pay3 (F := Ideal) x0 w b (ix2 p q) = (∑ k : Fin 128, x0 (ix2 p k) * w (ix2 k q)) + b (ix1 q) := by
  unfold k0_pay3
  refine (addf_apply _ _ _).trans ?_
  refine congrArg₂ (· + ·) ?_ ?_
  · rw [shapeCast_self]
    exact Cert.LibPlainContract.matmul_plain_apply 4000 128 128 none (k0_pay1 (F := Ideal) x0) w p q
  · exact (broadcastTo_1b_ab_apply _ _ p q).trans (shapeCast_a_1a_apply b _ 0 q)
theorem pay4_apply (x0 : Vec Ideal S4000x128 .f32) (w : Vec Ideal S128x128 .bf16) (b : Vec Ideal S128 .f32)
    (p : Fin 4000) (q : Fin 128) :
    k0_pay4 (F := Ideal) x0 w b (ix2 p q) = (∑ k : Fin 128, x0 (ix2 p k) * w (ix2 k q)) + b (ix1 q) := by
  unfold k0_pay4
  refine (addf_apply _ _ _).trans ?_
  refine congrArg₂ (· + ·) ?_ ?_
  · rw [shapeCast_self]
    exact Cert.LibPlainContract.matmul_plain_apply 4000 128 128 none (k0_pay1 (F := Ideal) x0) w p q
  · exact (broadcastTo_1b_ab_apply _ _ p q).trans (shapeCast_a_1a_apply b _ 0 q)

theorem hz2 : (![0, 0] : Fin 2 → Nat) = fun _ => 0 := funext fun a => by fin_cases a <;> rfl
theorem hz1 : (![0] : Fin 1 → Nat) = fun _ => 0 := funext fun a => by fin_cases a; rfl

/-- What each output window's buffer holds after the body, at an entry. -/
theorem hop0_apply (x0 : Vec Ideal S4000x128 .f32) (w : Vec Ideal S128x128 .bf16) (b : Vec Ideal S128 .f32)
    (p : Fin 4000) (q : Fin 128) :
    hop0 (F := Ideal) x0 w b (ix2 p q) = (∑ k : Fin 128, x0 (ix2 p k) * w (ix2 k q)) + b (ix1 q) := by
  unfold hop0
  rw [View.canon_unit_zero hz2]
  simp only [View.ld_unit_zero (S := S4000x128) hz2, View.ld_unit_zero (S := S128x128) hz2, View.ld_unit_zero (S := S128) hz1]
  exact pay2_apply x0 w b p q
theorem hop1_apply (x0 : Vec Ideal S4000x128 .f32) (w : Vec Ideal S128x128 .bf16) (b : Vec Ideal S128 .f32)
    (p : Fin 4000) (q : Fin 128) :
    hop1 (F := Ideal) x0 w b (ix2 p q) = (∑ k : Fin 128, x0 (ix2 p k) * w (ix2 k q)) + b (ix1 q) := by
  unfold hop1
  rw [View.canon_unit_zero hz2]
  simp only [View.ld_unit_zero (S := S4000x128) hz2, View.ld_unit_zero (S := S128x128) hz2, View.ld_unit_zero (S := S128) hz1]
  exact pay3_apply x0 w b p q
theorem hop2_apply (x0 : Vec Ideal S4000x128 .f32) (w : Vec Ideal S128x128 .bf16) (b : Vec Ideal S128 .f32)
    (p : Fin 4000) (q : Fin 128) :
    hop2 (F := Ideal) x0 w b (ix2 p q) = (∑ k : Fin 128, x0 (ix2 p k) * w (ix2 k q)) + b (ix1 q) := by
  unfold hop2
  rw [View.canon_unit_zero hz2]
  simp only [View.ld_unit_zero (S := S4000x128) hz2, View.ld_unit_zero (S := S128x128) hz2, View.ld_unit_zero (S := S128) hz1]
  exact pay4_apply x0 w b p q

end Cert.KernelIdeal.Blocks

end
-- ==== Proof.Spec.lean ====
/-
  One hop's dense layer as a function of whole arrays, index by index, over the extended reals:
  `lin x W b` at row `p`, column `q` is the sum over `k < 128` of `x[p, k] · W[k, q]`, plus `b[q]`.
  Both programs compute this for each of the three hops — one as a matrix-unit product over 4000-row blocks, the other
  as one host contraction over all 100000 rows — and differ in nothing else.
-/
import Idealize.ShloMosaic.PureOps.Ideal
import Idealize.ShloMosaic.Lib.ValueIdx

noncomputable section

namespace Cert.Hops

open Idealize.ShloMosaic Idealize.ShloMosaic.ValueIdx

/-- Row `p` of `x` against column `q` of `W`, plus `b[q]`. -/
def lin (x : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => (∑ k : Fin 128, x (ix2 (i 0) k) * W (ix2 k (i 1))) + b (ix1 (i 1))

theorem lin_apply (x : (⟨2, ![100000, 128]⟩ : Shape).Idx → EReal) (W : (⟨2, ![128, 128]⟩ : Shape).Idx → EReal)
    (b : (⟨1, ![128]⟩ : Shape).Idx → EReal) (p : Fin 100000) (q : Fin 128) :
    lin x W b (ix2 p q) = (∑ k : Fin 128, x (ix2 p k) * W (ix2 k q)) + b (ix1 q) := rfl

end Cert.Hops

end
-- ==== Proof.IdealBlocks.lean ====
/-
  From blocks to arrays. At grid point `t` the pallas_call reads rows `4000·t … 4000·t + 3999` of `x` (window 0), the
  whole of each hop's weights and bias (windows 1–6, block index always zero), and writes the same rows of each hop's
  output (windows 7–9). So what point `t` writes back for a hop is block `t` of ONE whole-array function — `lin` of `x`,
  the hop's weights and its bias as the region finds them —, the 25 blocks tile the 100000 rows, and each output array
  ends holding that function.
-/
import proofs.«136343_j69234872811809_1_alg».proof.Proof.IdealRun
import proofs.«136343_j69234872811809_1_alg».proof.Proof.IdealPayload
import proofs.«136343_j69234872811809_1_alg».proof.Proof.Spec

set_option maxRecDepth 16384

noncomputable section

namespace Cert.KernelIdeal.Blocks

open Cert.KernelIdeal Cert.KernelIdeal.Gen Cert.KernelIdeal.Around Cert.Hops
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The printed index maps, decided once over the 25 points: the row block of `x` and of every output is the point's,
    every other block index is zero. -/
theorem idx_facts : ∀ t : Fin cfg0.N,
    win0_0.index t (0 : Fin 2) = win0_7.index t (0 : Fin 2) ∧ win0_0.index t (1 : Fin 2) = 0
    ∧ win0_8.index t (0 : Fin 2) = win0_7.index t (0 : Fin 2) ∧ win0_9.index t (0 : Fin 2) = win0_7.index t (0 : Fin 2)
    ∧ win0_7.index t (1 : Fin 2) = 0 ∧ win0_8.index t (1 : Fin 2) = 0 ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) ≤ 24 :=
  (by decide +kernel : ∀ t : Fin grid0.N, _)

/-- Every row block is some point's. -/
theorem idx_onto : ∀ q0 : Fin 25, ∃ t : Fin cfg0.N, win0_7.index t (0 : Fin 2) = q0.val :=
  (by decide +kernel : ∀ q0 : Fin 25, ∃ t : Fin grid0.N, win0_7.index t (0 : Fin 2) = q0.val)

/-- One entry of a block of `lin`: over plain arrays, with the three reads of the block located by hypotheses. -/
theorem lin_block (X : S100000x128.Idx → EReal) (Wt : S128x128.Idx → EReal) (B : S128.Idx → EReal)
    (xb : S4000x128.Idx → EReal) (wb : S128x128.Idx → EReal) (bb : S128.Idx → EReal)
    (i : S100000x128.Idx) (p : Fin 4000) (q : Fin 128)
    (hx : ∀ k : Fin 128, xb (ix2 p k) = X (ix2 (i 0) k)) (hw : ∀ k : Fin 128, wb (ix2 k q) = Wt (ix2 k (i 1)))
    (hb : bb (ix1 q) = B (ix1 (i 1))) :
    (∑ k : Fin 128, xb (ix2 p k) * wb (ix2 k q)) + bb (ix1 q) = lin X Wt B i := by
  unfold lin
  rw [hb]
  exact congrArg (· + _) (Finset.sum_congr rfl fun k _ => by rw [hx k, hw k])

/-! ## Output window 7 -/

/-- What point `t` writes back is block `t` of `lin` of the arrays as the region finds them. -/
theorem flushed7_eq (c : Dev nD) (t : Fin cfg0.N) :
    (dats m 0 c).flushed 7 t = ((cfg0.win 7).blk t).view.read (Elt Ideal) (lin (V m c main_arg0) (V m c main_v0) (V m c main_arg5)) := by
  show (cfg0.win 7).cut (grid0.coords t) ((dats m 0 c).after 7 t) = _
  rw [after_7]
  obtain ⟨e0, e1, e8, e9, e71, e81, e91, e10, e11, e20, e21, e30, e31, e4, e5, e6, e7⟩ := idx_facts t
  funext j
  show hop0 (iblk m c 0 t) (iblk m c 1 t) (iblk m c 4 t) j = lin (V m c main_arg0) (V m c main_v0) (V m c main_arg5) (((cfg0.win 7).blk t).view.emb j)
  refine (congrArg (hop0 (iblk m c 0 t) (iblk m c 1 t) (iblk m c 4 t)) (eq_ix2 (n0 := 4000) (n1 := 128) j)).trans ?_
  refine (hop0_apply _ _ _ (j 0) (j 1)).trans ?_
  refine lin_block _ _ _ _ _ _ _ (j 0) (j 1) (fun k => ?_) (fun k => ?_) ?_
  · show V m c main_arg0 (((cfg0.win 0).blk t).view.emb (ix2 (j 0) k)) = V m c main_arg0 _
    refine congrArg _ (funext fun a => Fin.ext ?_)
    match a with
    | ⟨0, _⟩ => show win0_0.index t (0 : Fin 2) * 4000 + 1 * (j 0).val = win0_7.index t (0 : Fin 2) * 4000 + 1 * (j 0).val; omega
    | ⟨1, _⟩ => show win0_0.index t (1 : Fin 2) * 128 + 1 * k.val = k.val; omega
  · show V m c main_v0 (((cfg0.win 1).blk t).view.emb (ix2 k (j 1))) = V m c main_v0 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_7.index t (1 : Fin 2) * 128 + 1 * (j 1).val; omega
  · show V m c main_arg5 (((cfg0.win 4).blk t).view.emb (ix1 (j 1))) = V m c main_arg5 _
    refine congrArg _ (funext fun a => Fin.ext ?_)
    match a with
    | ⟨0, _⟩ => show win0_4.index t (0 : Fin 1) * 128 + 1 * (j 1).val = win0_7.index t (1 : Fin 2) * 128 + 1 * (j 1).val; omega

/-- An index of the array is in point `t`'s block iff each coordinate is in the block's range on its axis. -/
theorem mem_blk7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v3_0).slice (win0_7.rect t)).set ↔ _
  rw [View.set_slice_whole, Rect.mem_set_unit]
  exact Iff.rfl

/-- The 25 row blocks cover the array: row `r` is in the block of the point whose index is `r / 4000`. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 4000, by omega⟩
  have q0 : win0_7.index t (0 : Fin 2) = (i 0).val / 4000 := ht
  obtain ⟨e0, e1, e8, e9, e71, e81, e91, e10, e11, e20, e21, e30, e31, e4, e5, e6, e7⟩ := idx_facts t
  refine ⟨t, flush0_7 t, ?_⟩
  rw [mem_blk7]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- The array after the run. -/
theorem final7 (c : Dev nD) : (dats m 0 c).arrAt 7 cfg0.N = lin (V m c main_arg0) (V m c main_v0) (V m c main_arg5) :=
  (dats m 0 c).arrAt_eq_of_cover 7 _ (fun t _ => flushed7_eq m c t) (cover7)

/-! ## Output window 8 -/

/-- What point `t` writes back is block `t` of `lin` of the arrays as the region finds them. -/
theorem flushed8_eq (c : Dev nD) (t : Fin cfg0.N) :
    (dats m 0 c).flushed 8 t = ((cfg0.win 8).blk t).view.read (Elt Ideal) (lin (V m c main_arg0) (V m c main_v1) (V m c main_arg7)) := by
  show (cfg0.win 8).cut (grid0.coords t) ((dats m 0 c).after 8 t) = _
  rw [after_8]
  obtain ⟨e0, e1, e8, e9, e71, e81, e91, e10, e11, e20, e21, e30, e31, e4, e5, e6, e7⟩ := idx_facts t
  funext j
  show hop1 (iblk m c 0 t) (iblk m c 2 t) (iblk m c 5 t) j = lin (V m c main_arg0) (V m c main_v1) (V m c main_arg7) (((cfg0.win 8).blk t).view.emb j)
  refine (congrArg (hop1 (iblk m c 0 t) (iblk m c 2 t) (iblk m c 5 t)) (eq_ix2 (n0 := 4000) (n1 := 128) j)).trans ?_
  refine (hop1_apply _ _ _ (j 0) (j 1)).trans ?_
  refine lin_block _ _ _ _ _ _ _ (j 0) (j 1) (fun k => ?_) (fun k => ?_) ?_
  · show V m c main_arg0 (((cfg0.win 0).blk t).view.emb (ix2 (j 0) k)) = V m c main_arg0 _
    refine congrArg _ (funext fun a => Fin.ext ?_)
    match a with
    | ⟨0, _⟩ => show win0_0.index t (0 : Fin 2) * 4000 + 1 * (j 0).val = win0_8.index t (0 : Fin 2) * 4000 + 1 * (j 0).val; omega
    | ⟨1, _⟩ => show win0_0.index t (1 : Fin 2) * 128 + 1 * k.val = k.val; omega
  · show V m c main_v1 (((cfg0.win 2).blk t).view.emb (ix2 k (j 1))) = V m c main_v1 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_8.index t (1 : Fin 2) * 128 + 1 * (j 1).val; omega
  · show V m c main_arg7 (((cfg0.win 5).blk t).view.emb (ix1 (j 1))) = V m c main_arg7 _
    refine congrArg _ (funext fun a => Fin.ext ?_)
    match a with
    | ⟨0, _⟩ => show win0_5.index t (0 : Fin 1) * 128 + 1 * (j 1).val = win0_8.index t (1 : Fin 2) * 128 + 1 * (j 1).val; omega

/-- An index of the array is in point `t`'s block iff each coordinate is in the block's range on its axis. -/
theorem mem_blk8 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v3_1).slice (win0_8.rect t)).set ↔ _
  rw [View.set_slice_whole, Rect.mem_set_unit]
  exact Iff.rfl

/-- The 25 row blocks cover the array: row `r` is in the block of the point whose index is `r / 4000`. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto ⟨(i 0).val / 4000, by omega⟩
  have q0 : win0_7.index t (0 : Fin 2) = (i 0).val / 4000 := ht
  obtain ⟨e0, e1, e8, e9, e71, e81, e91, e10, e11, e20, e21, e30, e31, e4, e5, e6, e7⟩ := idx_facts t
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- The array after the run. -/
theorem final8 (c : Dev nD) : (dats m 0 c).arrAt 8 cfg0.N = lin (V m c main_arg0) (V m c main_v1) (V m c main_arg7) :=
  (dats m 0 c).arrAt_eq_of_cover 8 _ (fun t _ => flushed8_eq m c t) (cover8)

/-! ## Output window 9 -/

/-- What point `t` writes back is block `t` of `lin` of the arrays as the region finds them. -/
theorem flushed9_eq (c : Dev nD) (t : Fin cfg0.N) :
    (dats m 0 c).flushed 9 t = ((cfg0.win 9).blk t).view.read (Elt Ideal) (lin (V m c main_arg0) (V m c main_v2) (V m c main_arg9)) := by
  show (cfg0.win 9).cut (grid0.coords t) ((dats m 0 c).after 9 t) = _
  rw [after_9]
  obtain ⟨e0, e1, e8, e9, e71, e81, e91, e10, e11, e20, e21, e30, e31, e4, e5, e6, e7⟩ := idx_facts t
  funext j
  show hop2 (iblk m c 0 t) (iblk m c 3 t) (iblk m c 6 t) j = lin (V m c main_arg0) (V m c main_v2) (V m c main_arg9) (((cfg0.win 9).blk t).view.emb j)
  refine (congrArg (hop2 (iblk m c 0 t) (iblk m c 3 t) (iblk m c 6 t)) (eq_ix2 (n0 := 4000) (n1 := 128) j)).trans ?_
  refine (hop2_apply _ _ _ (j 0) (j 1)).trans ?_
  refine lin_block _ _ _ _ _ _ _ (j 0) (j 1) (fun k => ?_) (fun k => ?_) ?_
  · show V m c main_arg0 (((cfg0.win 0).blk t).view.emb (ix2 (j 0) k)) = V m c main_arg0 _
    refine congrArg _ (funext fun a => Fin.ext ?_)
    match a with
    | ⟨0, _⟩ => show win0_0.index t (0 : Fin 2) * 4000 + 1 * (j 0).val = win0_9.index t (0 : Fin 2) * 4000 + 1 * (j 0).val; omega
    | ⟨1, _⟩ => show win0_0.index t (1 : Fin 2) * 128 + 1 * k.val = k.val; omega
  · show V m c main_v2 (((cfg0.win 3).blk t).view.emb (ix2 k (j 1))) = V m c main_v2 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_9.index t (1 : Fin 2) * 128 + 1 * (j 1).val; omega
  · show V m c main_arg9 (((cfg0.win 6).blk t).view.emb (ix1 (j 1))) = V m c main_arg9 _
    refine congrArg _ (funext fun a => Fin.ext ?_)
    match a with
    | ⟨0, _⟩ => show win0_6.index t (0 : Fin 1) * 128 + 1 * (j 1).val = win0_9.index t (1 : Fin 2) * 128 + 1 * (j 1).val; omega

/-- An index of the array is in point `t`'s block iff each coordinate is in the block's range on its axis. -/
theorem mem_blk9 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v3_2).slice (win0_9.rect t)).set ↔ _
  rw [View.set_slice_whole, Rect.mem_set_unit]
  exact Iff.rfl

/-- The 25 row blocks cover the array: row `r` is in the block of the point whose index is `r / 4000`. -/
theorem cover9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ := idx_onto ⟨(i 0).val / 4000, by omega⟩
  have q0 : win0_7.index t (0 : Fin 2) = (i 0).val / 4000 := ht
  obtain ⟨e0, e1, e8, e9, e71, e81, e91, e10, e11, e20, e21, e30, e31, e4, e5, e6, e7⟩ := idx_facts t
  refine ⟨t, flush0_9 t, ?_⟩
  rw [mem_blk9]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- The array after the run. -/
theorem final9 (c : Dev nD) : (dats m 0 c).arrAt 9 cfg0.N = lin (V m c main_arg0) (V m c main_v2) (V m c main_arg9) :=
  (dats m 0 c).arrAt_eq_of_cover 9 _ (fun t _ => flushed9_eq m c t) (cover9)

/-! ## The converted weights, as the region finds them -/

/-- Each conversion of a weight matrix to the matrix unit's input format is the identity on exact values. -/
theorem V_main_v0 (c : Dev nD) : (V m c main_v0 : S128x128.Idx → EReal) = m ((c : Thread nD τ).loc main_arg4) := by
  show StableHlo.after hostOps0 (fun b => m (c, b)) (Proc.devRef .tc main_v0) = _
  after_results
  rfl
theorem V_main_v1 (c : Dev nD) : (V m c main_v1 : S128x128.Idx → EReal) = m ((c : Thread nD τ).loc main_arg6) := by
  show StableHlo.after hostOps0 (fun b => m (c, b)) (Proc.devRef .tc main_v1) = _
  after_results
  rfl
theorem V_main_v2 (c : Dev nD) : (V m c main_v2 : S128x128.Idx → EReal) = m ((c : Thread nD τ).loc main_arg8) := by
  show StableHlo.after hostOps0 (fun b => m (c, b)) (Proc.devRef .tc main_v2) = _
  after_results
  rfl

/-- Each hop's output array after the run, from the launch contents. -/
theorem hop0_final (c : Dev nD) : ((dats m 0 c).arrAt 7 cfg0.N : S100000x128.Idx → EReal)
    = lin (m ((c : Thread nD τ).loc main_arg0)) (m ((c : Thread nD τ).loc main_arg4)) (m ((c : Thread nD τ).loc main_arg5)) := by
  rw [final7, V_main_arg0, V_main_v0, V_main_arg5]
theorem hop1_final (c : Dev nD) : ((dats m 0 c).arrAt 8 cfg0.N : S100000x128.Idx → EReal)
    = lin (m ((c : Thread nD τ).loc main_arg0)) (m ((c : Thread nD τ).loc main_arg6)) (m ((c : Thread nD τ).loc main_arg7)) := by
  rw [final8, V_main_arg0, V_main_v1, V_main_arg7]
theorem hop2_final (c : Dev nD) : ((dats m 0 c).arrAt 9 cfg0.N : S100000x128.Idx → EReal)
    = lin (m ((c : Thread nD τ).loc main_arg0)) (m ((c : Thread nD τ).loc main_arg8)) (m ((c : Thread nD τ).loc main_arg9)) := by
  rw [final9, V_main_arg0, V_main_v2, V_main_arg9]

end Cert.KernelIdeal.Blocks

end
-- ==== Proof.IdealTail.lean ====
/-
  The 49 host lines after the pallas_call, as one function of the three hop arrays and the graph: `tail` concatenates
  hop 0, one sparse propagation of hop 1, and two of hop 2 (`spmm`: gather the rows `col` names, scale by the edge weights,
  scatter-add into the rows `row` names). The lines' result buffer holds `tail` of what the three output arrays, `row`,
  `col` and the weights held before the lines, whatever those contents are, for any float instance.
-/
import proofs.«136343_j69234872811809_1_alg».proof.Proof.Gen.KernelIdeal.Launch
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- One sparse propagation: row `e` of the table `h` picked by `col[e]` (a negative index wrapped by the table's height),
    scaled by `ew[e]`, and added into row `row[e]` of a zero array. -/
def spmm (row col : (⟨S1600000, .i32⟩ : BufTy).Contents (Elt F)) (ew : (⟨S1600000, .f32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 row) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 h (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))

/-- The three hops side by side: hop 0 as it is, hop 1 propagated once, hop 2 propagated twice. -/
def tail (h0 h1 h2 : (⟨S100000x128, .f32⟩ : BufTy).Contents (Elt F))
    (row col : (⟨S1600000, .i32⟩ : BufTy).Contents (Elt F)) (ew : (⟨S1600000, .f32⟩ : BufTy).Contents (Elt F)) :
    (⟨S100000x384, .f32⟩ : BufTy).Contents (Elt F) :=
  concatenate S100000x384 1 [⟨S100000x128, h0⟩, ⟨S100000x128, spmm row col ew h1⟩, ⟨S100000x128, spmm row col ew (spmm row col ew h2)⟩] concatenates_S100000x128_S100000x128_S100000x128_S100000x384_d1

set_option maxRecDepth 8192 in
set_option maxHeartbeats 8000000 in
/-- The lines' result from any contents `W` before them. -/
theorem after_tail (W : Valuation τ sig (Elt F)) :
    StableHlo.after (hostOps1 (F := F)) W (Proc.devRef .tc main_v43)
      = tail (W (Proc.devRef .tc main_v3_0)) (W (Proc.devRef .tc main_v3_1)) (W (Proc.devRef .tc main_v3_2))
          (W (Proc.devRef .tc main_arg1)) (W (Proc.devRef .tc main_arg2)) (W (Proc.devRef .tc main_arg3)) := by
  unfold tail spmm
  after_results_simp <;> rfl

end Cert.KernelIdeal.Tail

end
-- ==== Proof.IdealValue.lean ====
/-
  The idealized kernel's run, read: its result buffer ends holding `tail` of the three hop arrays — each `lin` of `x`, the
  hop's weights and its bias as launched — and of `row`, `col` and the edge weights as launched; the ten arguments end
  unchanged.
-/
import proofs.«136343_j69234872811809_1_alg».proof.Proof.IdealBlocks
import proofs.«136343_j69234872811809_1_alg».proof.Proof.IdealTail

set_option maxRecDepth 16384

noncomputable section

namespace Cert.KernelIdeal.Result

open Cert.KernelIdeal Cert.KernelIdeal.Gen Cert.KernelIdeal.Around Cert.KernelIdeal.Blocks Cert.Hops
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- What the later lines leave in the result buffer: they find the three output arrays at what the write-backs left
    (`lin` of the launch contents) and `row`, `col`, the weights as launched. -/
theorem result_eq (c : Dev nD) :
    Pipeline.afterTail₀ cfgs (dats m) 0 (V0 m) [hostOps1] c main_v43 = Tail.tail (F := Ideal) (lin (m ((c : Thread nD τ).loc main_arg0)) (m ((c : Thread nD τ).loc main_arg4)) (m ((c : Thread nD τ).loc main_arg5))) (lin (m ((c : Thread nD τ).loc main_arg0)) (m ((c : Thread nD τ).loc main_arg6)) (m ((c : Thread nD τ).loc main_arg7))) (lin (m ((c : Thread nD τ).loc main_arg0)) (m ((c : Thread nD τ).loc main_arg8)) (m ((c : Thread nD τ).loc main_arg9))) (m ((c : Thread nD τ).loc main_arg1)) (m ((c : Thread nD τ).loc main_arg2)) (m ((c : Thread nD τ).loc main_arg3)) := by
  unfold Pipeline.afterTail₀
  show StableHlo.after hostOps1 (Pipeline.withArrays spec0 c (V0 m c) fun w => (dats m 0 c).arrAt w cfg0.N) (Proc.devRef .tc main_v43) = _
  rw [Tail.after_tail]
  have h7 : Pipeline.withArrays spec0 c (V0 m c) (fun w => (dats m 0 c).arrAt w cfg0.N) (Proc.devRef .tc main_v3_0)
      = (dats m 0 c).arrAt 7 cfg0.N := Pipeline.withArrays_arr spec0 launch0.win.arr_inj c _ _ 7
  have h8 : Pipeline.withArrays spec0 c (V0 m c) (fun w => (dats m 0 c).arrAt w cfg0.N) (Proc.devRef .tc main_v3_1)
      = (dats m 0 c).arrAt 8 cfg0.N := Pipeline.withArrays_arr spec0 launch0.win.arr_inj c _ _ 8
  have h9 : Pipeline.withArrays spec0 c (V0 m c) (fun w => (dats m 0 c).arrAt w cfg0.N) (Proc.devRef .tc main_v3_2)
      = (dats m 0 c).arrAt 9 cfg0.N := Pipeline.withArrays_arr spec0 launch0.win.arr_inj c _ _ 9
  have a1 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by exact (by decide : ∀ w, Pipeline.arrRef spec0 w ≠ main_arg1))).trans (V_main_arg1 m c)
  have a2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans (V_main_arg2 m c)
  have a3 : Pipeline.withArrays spec0 c (V0 m c) (fun w => (dats m 0 c).arrAt w cfg0.N) (Proc.devRef .tc main_arg3)
      = m ((c : Thread nD τ).loc main_arg3) :=
    (Pipeline.withArrays_of_ne spec0 c (V0 m c) _ main_arg3 (by exact (by decide : ∀ w, Pipeline.arrRef spec0 w ≠ main_arg3))).trans (V_main_arg3 m c)
  rw [h7, h8, h9, a1, a2, a3, hop0_final, hop1_final, hop2_final]

/-- The run, read. -/
theorem run : θ_run defs (onTc (τ := τ) (main (F := Ideal))) ⟨m, fun _ => 0, ρ⟩ fun r => ∀ c : Dev nD,
      r.2.mem ((c.tc : Thread nD τ).loc main_v43) = Tail.tail (F := Ideal) (lin (m ((c.tc : Thread nD τ).loc main_arg0)) (m ((c.tc : Thread nD τ).loc main_arg4)) (m ((c.tc : Thread nD τ).loc main_arg5))) (lin (m ((c.tc : Thread nD τ).loc main_arg0)) (m ((c.tc : Thread nD τ).loc main_arg6)) (m ((c.tc : Thread nD τ).loc main_arg7))) (lin (m ((c.tc : Thread nD τ).loc main_arg0)) (m ((c.tc : Thread nD τ).loc main_arg8)) (m ((c.tc : Thread nD τ).loc main_arg9))) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v43 (Pipeline.mem_restRefs_of main_v43 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c),
      ((h c).1 6).trans (((dats m 0 c).arrAt_in 6 rfl _).trans ((A_eq m c 6).trans (V_main_arg9 m c)))⟩)
    (run_main m ρ)

end Cert.KernelIdeal.Result

end
-- ==== Proof.RefValue.lean ====
/-
  The reference's result as the same function of the arguments. Its three dense layers are host contractions over all
  100000 rows plus the bias row spread over them — at an entry exactly `lin` —, and its remaining lines are the same
  concatenation of sparse propagations (`tail`) as the kernel's host lines.
-/
import proofs.«136343_j69234872811809_1_alg».proof.Proof.Gen.ReferenceIdeal.Read
import proofs.«136343_j69234872811809_1_alg».proof.Proof.Spec

noncomputable section

namespace Cert.ReferenceIdeal.RefValue

open Cert.ReferenceIdeal Cert.ReferenceIdeal.Gen Cert.Hops
open Idealize.ShloMosaic Idealize.ShloMosaic.TcCoe Idealize.ShloMosaic.ValueIdx Idealize.SL.Sem Idealize.ShloMosaic.StableHlo

variable {F : FTy → Type} [FloatOps F]

/-- One sparse propagation: row `e` of the table `h` picked by `col[e]` (a negative index wrapped by the table's height),
    scaled by `ew[e]`, and added into row `row[e]` of a zero array. -/
def spmm (row col : (⟨S1600000, .i32⟩ : BufTy).Contents (Elt F)) (ew : (⟨S1600000, .f32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 row) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 h (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))

/-- The three hops side by side: hop 0 as it is, hop 1 propagated once, hop 2 propagated twice. -/
def tail (h0 h1 h2 : (⟨S100000x128, .f32⟩ : BufTy).Contents (Elt F))
    (row col : (⟨S1600000, .i32⟩ : BufTy).Contents (Elt F)) (ew : (⟨S1600000, .f32⟩ : BufTy).Contents (Elt F)) :
    (⟨S100000x384, .f32⟩ : BufTy).Contents (Elt F) :=
  concatenate S100000x384 1 [⟨S100000x128, h0⟩, ⟨S100000x128, spmm row col ew h1⟩, ⟨S100000x128, spmm row col ew (spmm row col ew h2)⟩] concatenates_S100000x128_S100000x128_S100000x128_S100000x384_d1

/-- The contraction's left operand is read at (row of the entry, `k`), -/
theorem lidx_eq (i : S100000x128.Idx) (k : Fin 128) : Read.lidx_main_v0 i k = ix2 (i 0) k :=
  funext fun a => Fin.ext (by match a with | ⟨0, _⟩ => rfl | ⟨1, _⟩ => rfl)
/-- its right operand at (`k`, column of the entry), -/
theorem ridx_eq (i : S100000x128.Idx) (k : Fin 128) : Read.ridx_main_v0 i k = ix2 k (i 1) :=
  funext fun a => Fin.ext (by match a with | ⟨0, _⟩ => rfl | ⟨1, _⟩ => rfl)
/-- and the spread bias at the entry's column. -/
theorem bidx_eq (i : S100000x128.Idx) : Read.idx_main_v1 (Read.idx_main_v2 i) = ix1 (i 1) :=
  funext fun a => Fin.ext (by match a with | ⟨0, _⟩ => rfl)

/-- A dense layer of the reference is `lin`. -/
theorem dense_eq (x : FVec Ideal S100000x128 .f32) (W : FVec Ideal S128x128 .f32) (b : FVec Ideal S128 .f32) :
    addf (Host.dotGeneral (F := Ideal) dot_S100000x128_S128x128_S100000x128_1_0_0_1_n_n none x W)
      (broadcastInDim S100000x128 ![0, 1] bcast_S1x128_S100000x128_0_1 (broadcastInDim S1x128 ![1] bcast_S128_S1x128_1 b))
    = lin x W b := by
  funext i
  show Read.val_main_v3 (F := Ideal) x W b i = _
  rw [Read.val_main_v3_apply, Read.val_main_v0_apply, Read.val_main_v2_apply, Read.val_main_v1_apply]
  unfold lin
  simp only [lidx_eq, ridx_eq, bidx_eq]
  rfl

end Cert.ReferenceIdeal.RefValue

end
-- ==== Proof.Bridge.lean ====
/-
  The two results are one function of the arguments. The reference's result is `tail` of its three dense layers; each
  dense layer is `lin` (the host contraction at an entry is the same sum over `k` as the matrix unit's product of the
  row's block, and the bias row is spread the same way); and the two programs' later lines are the same operations
  over the same dimension records, so their `tail`s are one function.
-/
import proofs.«136343_j69234872811809_1_alg».proof.Proof.RefValue
import proofs.«136343_j69234872811809_1_alg».proof.Proof.IdealTail

noncomputable section

namespace Cert.ReferenceIdeal.RefValue

open Cert.ReferenceIdeal Cert.ReferenceIdeal.Gen Cert.Hops
open Idealize.ShloMosaic Idealize.ShloMosaic.TcCoe Idealize.SL.Sem

/-- The reference's `tail` and the kernel's are the same function. -/
theorem tail_eq (h0 h1 h2 : (⟨S100000x128, .f32⟩ : BufTy).Contents (Elt Ideal))
    (row col : (⟨S1600000, .i32⟩ : BufTy).Contents (Elt Ideal)) (ew : (⟨S1600000, .f32⟩ : BufTy).Contents (Elt Ideal)) :
    tail (F := Ideal) h0 h1 h2 row col ew = Cert.KernelIdeal.Tail.tail (F := Ideal) h0 h1 h2 row col ew := rfl

/-- The reference's result, from its arguments, is the kernel's function of them. -/
theorem result_eq (x : FVec Ideal S100000x128 .f32)
    (row col : (⟨S1600000, .i32⟩ : BufTy).Contents (Elt Ideal)) (ew : (⟨S1600000, .f32⟩ : BufTy).Contents (Elt Ideal))
    (W0 : FVec Ideal S128x128 .f32) (b0 : FVec Ideal S128 .f32)
    (W1 : FVec Ideal S128x128 .f32) (b1 : FVec Ideal S128 .f32)
    (W2 : FVec Ideal S128x128 .f32) (b2 : FVec Ideal S128 .f32) :
    tail (F := Ideal) (addf (Host.dotGeneral (F := Ideal) dot_S100000x128_S128x128_S100000x128_1_0_0_1_n_n none x W0) (broadcastInDim S100000x128 ![0, 1] bcast_S1x128_S100000x128_0_1 (broadcastInDim S1x128 ![1] bcast_S128_S1x128_1 b0)))
      (addf (Host.dotGeneral (F := Ideal) dot_S100000x128_S128x128_S100000x128_1_0_0_1_n_n none x W1) (broadcastInDim S100000x128 ![0, 1] bcast_S1x128_S100000x128_0_1 (broadcastInDim S1x128 ![1] bcast_S128_S1x128_1 b1)))
      (addf (Host.dotGeneral (F := Ideal) dot_S100000x128_S128x128_S100000x128_1_0_0_1_n_n none x W2) (broadcastInDim S100000x128 ![0, 1] bcast_S1x128_S100000x128_0_1 (broadcastInDim S1x128 ![1] bcast_S128_S1x128_1 b2))) row col ew
    = Cert.KernelIdeal.Tail.tail (F := Ideal) (lin x W0 b0) (lin x W1 b1) (lin x W2 b2) row col ew := by
  rw [dense_eq, dense_eq, dense_eq]
  exact tail_eq _ _ _ _ _ _

end Cert.ReferenceIdeal.RefValue

end
-- ==== Proof.lean ====
/-
  The certificate of a three-hop graph layer. Both programs compute, for each hop, the dense layer `x · W + b`
  over 100000 rows; hop 0 is kept as it is, hop 1 is propagated once and hop 2 twice through the sparse adjacency
  (gather the rows the edges' sources name, scale by the edge weights, scatter-add into the rows their targets name);
  the three results are laid side by side. The kernel computes the three dense layers in ONE pallas_call over 25 blocks
  of 4000 rows, feeding the matrix unit with the operands converted to its input format, and leaves the propagation to
  host lines; the reference computes everything on the host.

  Frames. The kernel's @main is host lines, one region, host lines; its body loads whole staging buffers, computes, and
  stores whole staging buffers, so the region's proof data names what every buffer holds after every grid point, and
  the run follows from the library's frame theorem for that shape — once for the word-level program, once for the
  idealized one (Proof/WordAround … WordRun, Proof/IdealAround … IdealRun). The reference's frame is its generated
  run with the result dropped.

  Values, over the extended reals. A change of float format is the identity, and the matrix unit's product of a block
  into a zero accumulator, at an entry, is the same sum over `k` of `x[p, k] · W[k, q]` as the host's contraction; the
  bias row is spread over the rows on both sides. So each output array of the pallas_call ends holding `lin x W b`
  (Proof/IdealPayload, Proof/IdealBlocks: block `t` of the array is what point `t` wrote, and the 25 blocks tile it),
  each dense layer of the reference is `lin x W b` too (Proof/RefValue), and the later lines of both programs are the
  same function `tail` of the three hop arrays and the graph (Proof/IdealTail, Proof/Bridge). No law of arithmetic
  beyond reading both sums at an entry is used, so the precondition is never opened.
-/
import proofs.«136343_j69234872811809_1_alg».proof.Defs
import proofs.«136343_j69234872811809_1_alg».proof.Proof.Gen.Kernel
import proofs.«136343_j69234872811809_1_alg».proof.Proof.Gen.Kernel.Skeleton
import proofs.«136343_j69234872811809_1_alg».proof.Proof.Gen.Kernel.Launch
import proofs.«136343_j69234872811809_1_alg».proof.Proof.Gen.Kernel.Points
import proofs.«136343_j69234872811809_1_alg».proof.Proof.Gen.KernelIdeal
import proofs.«136343_j69234872811809_1_alg».proof.Proof.Gen.KernelIdeal.Skeleton
import proofs.«136343_j69234872811809_1_alg».proof.Proof.Gen.KernelIdeal.Launch
import proofs.«136343_j69234872811809_1_alg».proof.Proof.Gen.KernelIdeal.Points
import proofs.«136343_j69234872811809_1_alg».proof.Proof.Gen.ReferenceIdeal
import proofs.«136343_j69234872811809_1_alg».proof.Proof.Gen.ReferenceIdeal.Run
import proofs.«136343_j69234872811809_1_alg».proof.Proof.Gen.ReferenceIdeal.Read
import proofs.«136343_j69234872811809_1_alg».proof.Proof.Gen.Pre_finite_inputs
import proofs.«136343_j69234872811809_1_alg».proof.Proof.WordRun
import proofs.«136343_j69234872811809_1_alg».proof.Proof.IdealValue
import proofs.«136343_j69234872811809_1_alg».proof.Proof.Bridge
import Idealize.ShloMosaic.Adequacy
import Idealize.ShloMosaic.Init

noncomputable section

namespace Cert.Proof

open Idealize.ShloMosaic Idealize.ShloMosaic.TcCoe Idealize.SL.Sem Cert.Hops

/-- The word-level kernel runs to its end, faults nowhere, and leaves its arguments unchanged. -/
theorem frame_word : Cert.frame_Kernel := fun m ρ _ => Cert.Kernel.Around.frame m ρ
/-- So does the idealized kernel. -/
theorem frame_ideal : Cert.frame_KernelIdeal := fun m ρ _ => Cert.KernelIdeal.Around.frame m ρ
/-- And the reference: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: `tail` of the three
    dense layers `lin x W b` and the graph. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact Cert.ReferenceIdeal.RefValue.result_eq _ _ _ _ _ _ _ _ _ _

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
